-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S128x1024 : Shape := ⟨2, ![128, 1024]⟩
abbrev S800000 : Shape := ⟨1, ![800000]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x1024 .f32) (main_arg1 : FVec F S128x1024 .f32) (main_arg2 : IVec S800000 32) (main_arg3 : IVec S800000 32) (main_arg4 : FVec F S800000 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S800000 .f32 := Host.absf main_arg4
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  main_v13
-- ==== Kernel.lean ====
abbrev S50000x1024 : Shape := ⟨2, ![50000, 1024]⟩
abbrev S128x1024 : Shape := ⟨2, ![128, 1024]⟩
abbrev S800000 : Shape := ⟨1, ![800000]⟩
abbrev S50000x128 : Shape := ⟨2, ![50000, 128]⟩
abbrev S2000x1024 : Shape := ⟨2, ![2000, 1024]⟩
abbrev S2000x128 : Shape := ⟨2, ![2000, 128]⟩
abbrev S800000x1 : Shape := ⟨2, ![800000, 1]⟩
abbrev S_ : Shape := ⟨0, ![]⟩
abbrev S800000x128 : Shape := ⟨2, ![800000, 128]⟩

abbrev nBuf : Space → Nat
  | .hbm => 22
  | .vmem => 5
  | .smem => 0
  | _ => 0

abbrev bufTy : (tb : Table) → Fin (tcTables nBuf tb) → BufTy
  | .hbm, ⟨0, _⟩ => ⟨S50000x1024, .f32⟩
  | .hbm, ⟨1, _⟩ => ⟨S128x1024, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S50000x128, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .local _ .vmem, ⟨0, _⟩ => ⟨S2000x1024, .f32⟩
  | .local _ .vmem, ⟨1, _⟩ => ⟨S2000x1024, .f32⟩
  | .local _ .vmem, ⟨2, _⟩ => ⟨S128x1024, .f32⟩
  | .local _ .vmem, ⟨3, _⟩ => ⟨S2000x128, .f32⟩
  | .local _ .vmem, ⟨4, _⟩ => ⟨S2000x128, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S2000x128_S2000x128_0_0 : ∀ a, (![0, 0] : Fin 2 → Nat) a + S2000x128.size a ≤ S2000x128.size a
  h_S2000x128 : 0 < S2000x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S2000x1024_S128x1024_S2000x128_1_1_0_0_n_n_wf : DotDims.WF S2000x1024 S128x1024 S2000x128 [1] [1] [0] [0] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S50000x1024.size a
  hwx0_0 : ∀ i : grid0.Coords, EltTy.bits .f32 = 32 ∨ (Rect.block (s := S50000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)

variable [Facts₀]

def dot_S2000x1024_S128x1024_S2000x128_1_1_0_0_n_n : DotDims S2000x1024 S128x1024 S2000x128 where
  lhsContracting := [1]
  rhsContracting := [1]
  lhsNonContracting := [0]
  rhsNonContracting := [0]
  lhsBatch := []
  rhsBatch := []
  wf := dot_S2000x1024_S128x1024_S2000x128_1_1_0_0_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x1024 : Shape := ⟨2, ![50000, 1024]⟩
abbrev S128x1024 : Shape := ⟨2, ![128, 1024]⟩
abbrev S800000 : Shape := ⟨1, ![800000]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩

abbrev nBuf : Space → Nat
  | .hbm => 22
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S128x1024, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S50000x128, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x1024_S128x1024_S50000x128_1_1_0_0_n_n_wf : DotDims.WF S50000x1024 S128x1024 S50000x128 [1] [1] [0] [0] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x1024_S128x1024_S50000x128_1_1_0_0_n_n : DotDims S50000x1024 S128x1024 S50000x128 where
  lhsContracting := [1]
  rhsContracting := [1]
  lhsNonContracting := [0]
  rhsNonContracting := [0]
  lhsBatch := []
  rhsBatch := []
  wf := dot_S50000x1024_S128x1024_S50000x128_1_1_0_0_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The layer both programs compute: a dense product followed by a sparse aggregation,
  out = A · (x · wᵀ).

  The inputs are node features x (50000 × 1024), a weight matrix w (128 × 1024) and a sparse
  adjacency matrix A (50000 × 50000) in coordinate form: 800000 edges, edge e carrying a
  destination row `row e`, a source row `col e` and a weight `vals e`.  Then

    h[n, j]   = ∑ₖ x[n, k] · w[j, k]                                (the dense product, `gemm`)
    out[r, j] = ∑ { vals e · h[col e, j]  :  e with row e = r }     (the aggregation, `aggregate`)

  `gemm` is stated index by index over the extended reals: it is the one place where the two
  programs differ (one computes h in 25 tiles of 2000 rows, the other in one piece), and a sum of
  products over k does not depend on how the rows are tiled.

  `aggregate` names the second stage as ONE function of h and the three edge arrays: normalise a
  negative source index by adding 50000, gather the source rows of h, scale each gathered row by
  its edge weight, and add the scaled rows into a zero array at their destination rows.  Both
  programs apply this same function to their h, so equality of the results follows from equality
  of the two h alone, and nothing about gathering or scattering is ever needed.  The dimension
  records of the gather and the scatter-add and the shape facts of the broadcasts are parameters,
  so that the function can be instantiated at either program's copies of them.
-/
import Idealize.ShloMosaic.PureOps
import Idealize.ShloMosaic.PureOps.Ideal
import Idealize.ShloMosaic.Lib.ValueIdx

noncomputable section

namespace Cert.GemmSpmm

open Idealize.ShloMosaic Idealize.ShloMosaic.ValueIdx

/-- Node features: 50000 nodes, 1024 features each. -/
abbrev SX : Shape := ⟨2, ![50000, 1024]⟩
/-- The weight matrix: 128 output features by 1024 input features. -/
abbrev SW : Shape := ⟨2, ![128, 1024]⟩
/-- The projected features h and the result: 50000 nodes, 128 features each. -/
abbrev SH : Shape := ⟨2, ![50000, 128]⟩
/-- One entry per edge. -/
abbrev SE : Shape := ⟨1, ![800000]⟩
/-- One entry per edge, as a column. -/
abbrev SE1 : Shape := ⟨2, ![800000, 1]⟩
/-- One row of 128 features per edge (the messages). -/
abbrev SM : Shape := ⟨2, ![800000, 128]⟩
/-- A scalar. -/
abbrev S0 : Shape := ⟨0, ![]⟩

/-- The dense product h = x · wᵀ over the extended reals: entry (n, j) is ∑ₖ x[n, k] · w[j, k]. -/
def gemm (x : SX.Idx → EReal) (w : SW.Idx → EReal) : SH.Idx → EReal := fun i =>
  ∑ k : Fin 1024, x (ix2 (n0 := 50000) ⟨(i 0).val, idx2_lt0 i⟩ k) * w (ix2 (n0 := 128) ⟨(i 1).val, idx2_lt1 i⟩ k)

/-- `gemm` at an index given by its coordinates. -/
theorem gemm_ix2 (x : SX.Idx → EReal) (w : SW.Idx → EReal) (n : Fin 50000) (j : Fin 128) :
    gemm x w (ix2 n j) = ∑ k : Fin 1024, x (ix2 n k) * w (ix2 j k) := rfl

variable {F : FTy → Type} [FloatOps F]

/-- The sparse aggregation out = A · h, as one function of h and the edge arrays: a negative source
    index is first moved up by 50000; the source rows of h are gathered, one per edge; each is scaled
    by its edge's weight; and the scaled rows are added into a zero array at their destination rows. -/
def aggregate (dg : GatherDims SH SE1 SM) (ds : ScatterDims SH SE1 SM)
    (bcol : SE.BroadcastsInDim SE1 (![0] : Fin 1 → Fin SE1.rank))
    (bedge : S0.BroadcastsInDim SE (![] : Fin 0 → Fin SE.rank))
    (bmsg : SE1.BroadcastsInDim SM (![0, 1] : Fin 2 → Fin SM.rank))
    (bout : S0.BroadcastsInDim SH (![] : Fin 0 → Fin SH.rank))
    (h : (⟨SH, .f32⟩ : BufTy).Contents (Elt F))
    (row col : (⟨SE, .i32⟩ : BufTy).Contents (Elt F)) (vals : (⟨SE, .f32⟩ : BufTy).Contents (Elt F)) :
    (⟨SH, .f32⟩ : BufTy).Contents (Elt F) :=
  Host.scatterAdd ds (broadcastInDim SH ![] bout (constant S0 .f32 0x00000000#32))
    (broadcastInDim SE1 ![0] bcol row)
    (mulf (broadcastInDim SM ![0, 1] bmsg (broadcastInDim SE1 ![0] bcol vals))
      (Host.gather dg h
        (broadcastInDim SE1 ![0] bcol
          (select (cmpi .slt col (broadcastInDim SE ![] bedge (constantI S0 32 0#32)))
            (addi col (broadcastInDim SE ![] bedge (constantI S0 32 50000#32))) col))))

end Cert.GemmSpmm

end
-- ==== Proof.KernelBlock.lean ====
/-
  One grid point of the tiled dense product.

  The kernel computes h = x · wᵀ in 25 tiles: at point t it loads rows 2000·t … 2000·t + 1999 of x
  (a 2000 × 1024 block) and the whole of w (128 × 1024), multiplies them into a zero accumulator
  and stores the 2000 × 128 product, which is written back as rows 2000·t … 2000·t + 1999 of h.
  Over the extended reals the narrowing of the operands before the product is the identity, so
  the stored block at (p, q) is ∑ₖ (x-block)[p, k] · w[q, k] (`tile_apply`), and since row p of
  the x-block is row 2000·t + p of x, what point t writes back is block t of `gemm x w`
  (`flushed_eq`).
-/
import proofs.«103100_j35210141893096_1_alg».proof.Proof.Gen.KernelIdeal.Frame
import proofs.«103100_j35210141893096_1_alg».proof.Proof.Spec
import Idealize.ShloMosaic.Lib.Pipeline.Value
import Idealize.ShloMosaic.Lib.ValueIdx
import Idealize.ShloMosaic.PureOps.Ideal.Laws

noncomputable section

namespace Cert.KernelIdeal.Tile

open Idealize.ShloMosaic Idealize.ShloMosaic.TcCoe Idealize.ShloMosaic.ValueIdx Idealize.SL.Sem
open Cert.KernelIdeal Cert.KernelIdeal.Gen Cert.GemmSpmm

/-- The one contraction axis of the tile product has extent 1024. -/
abbrev kAxis := contrEquiv1 dot_S2000x1024_S128x1024_S2000x128_1_1_0_0_n_n 1024 rfl rfl

/-- The left operand's row coordinate is the output's row coordinate. -/
theorem lhs_row (i : S2000x128.Idx) (r : dot_S2000x1024_S128x1024_S2000x128_1_1_0_0_n_n.contr.Idx) :
    (dot_S2000x1024_S128x1024_S2000x128_1_1_0_0_n_n.lhsIdx i r 0).val = (i 0).val := by
  unfold DotDims.lhsIdx
  rw [dif_neg (show ¬(0 : Fin S2000x1024.rank) ∈ dot_S2000x1024_S128x1024_S2000x128_1_1_0_0_n_n.lhsBatch by decide),
    dif_pos (show (0 : Fin S2000x1024.rank) ∈ dot_S2000x1024_S128x1024_S2000x128_1_1_0_0_n_n.lhsNonContracting by decide)]
  rfl

/-- The right operand's row coordinate is the output's COLUMN coordinate: the product is with wᵀ. -/
theorem rhs_row (i : S2000x128.Idx) (r : dot_S2000x1024_S128x1024_S2000x128_1_1_0_0_n_n.contr.Idx) :
    (dot_S2000x1024_S128x1024_S2000x128_1_1_0_0_n_n.rhsIdx i r 0).val = (i 1).val := by
  unfold DotDims.rhsIdx
  rw [dif_neg (show ¬(0 : Fin S128x1024.rank) ∈ dot_S2000x1024_S128x1024_S2000x128_1_1_0_0_n_n.rhsBatch by decide),
    dif_pos (show (0 : Fin S128x1024.rank) ∈ dot_S2000x1024_S128x1024_S2000x128_1_1_0_0_n_n.rhsNonContracting by decide)]
  rfl

/-- The left operand of the tile product at output (p, q) and contraction index k is read at (p, k). -/
theorem lhs_at (p : Fin 2000) (q : Fin 128) (k : Fin 1024) :
    dot_S2000x1024_S128x1024_S2000x128_1_1_0_0_n_n.lhsIdx (ix2 p q) (kAxis.symm k) = ix2 p k := by
  have hk := contrEquiv1_symm_val dot_S2000x1024_S128x1024_S2000x128_1_1_0_0_n_n 1024 rfl rfl k
  funext a; apply Fin.ext
  match a with
  | ⟨0, _⟩ => exact lhs_row _ _
  | ⟨1, _⟩ => exact (dot_S2000x1024_S128x1024_S2000x128_1_1_0_0_n_n.lhsIdx_val_of_single rfl _ _).trans hk

/-- The right operand at output (p, q) and contraction index k is read at (q, k). -/
theorem rhs_at (p : Fin 2000) (q : Fin 128) (k : Fin 1024) :
    dot_S2000x1024_S128x1024_S2000x128_1_1_0_0_n_n.rhsIdx (ix2 p q) (kAxis.symm k) = ix2 q k := by
  have hk := contrEquiv1_symm_val dot_S2000x1024_S128x1024_S2000x128_1_1_0_0_n_n 1024 rfl rfl k
  funext a; apply Fin.ext
  match a with
  | ⟨0, _⟩ => exact rhs_row _ _
  | ⟨1, _⟩ => exact (dot_S2000x1024_S128x1024_S2000x128_1_1_0_0_n_n.rhsIdx_val_of_single rfl _ _).trans hk

/-- The stored tile at (p, q): the sum over k of the loaded x-block at (p, k) times the loaded w at (q, k). -/
theorem tile_apply (x0 : Vec Ideal S2000x1024 .f32) (x1 : Vec Ideal S128x1024 .f32) (p : Fin 2000) (q : Fin 128) :
    k0_pay1 (F := Ideal) x0 x1 (ix2 p q) = ∑ k : Fin 1024, x0 (ix2 p k) * x1 (ix2 q k) := by
  unfold k0_pay1
  refine (Ideal.matmul_constant_zero_apply dot_S2000x1024_S128x1024_S2000x128_1_1_0_0_n_n none _ _ (ix2 p q)).trans ?_
  rw [← Equiv.sum_comp kAxis.symm]
  refine Finset.sum_congr rfl fun k _ => ?_
  rw [lhs_at p q k, rhs_at p q k]
  rfl

/-- A stored tile is a block of the whole product.  If the loaded x-block is rows r₀, r₀ + 1, … of X
    and the loaded w is W, then the tile at (p, q) is `gemm X W` at (r₀ + p, q): both are the sum over
    k of X[r₀ + p, k] · W[q, k]. -/
theorem tile_is_block (x0 : Vec Ideal S2000x1024 .f32) (x1 : Vec Ideal S128x1024 .f32)
    (X : SX.Idx → EReal) (W : SW.Idx → EReal) (r0 : Nat)
    (h0 : ∀ (p : Fin 2000) (k : Fin 1024) (n : Fin 50000), n.val = r0 + p.val → x0 (ix2 p k) = X (ix2 n k))
    (h1 : ∀ (q : Fin 128) (k : Fin 1024), x1 (ix2 q k) = W (ix2 q k))
    (j : S2000x128.Idx) (i : SH.Idx) (hi0 : (i 0).val = r0 + (j 0).val) (hi1 : (i 1).val = (j 1).val) :
    k0_pay1 (F := Ideal) x0 x1 j = gemm X W i := by
  obtain ⟨p, q, rfl⟩ : ∃ (p : Fin 2000) (q : Fin 128), j = ix2 p q := ⟨j 0, j 1, eq_ix2 j⟩
  rw [tile_apply]
  show _ = ∑ k : Fin 1024, X (ix2 (n0 := 50000) ⟨(i 0).val, idx2_lt0 i⟩ k) * W (ix2 (n0 := 128) ⟨(i 1).val, idx2_lt1 i⟩ k)
  refine Finset.sum_congr rfl fun k _ => ?_
  rw [h0 p k ⟨(i 0).val, idx2_lt0 i⟩ hi0, h1 q k]
  have hq : q = (⟨(i 1).val, idx2_lt1 i⟩ : Fin 128) := Fin.ext hi1.symm
  rw [hq]

variable (m : (ℓ : Loc nD τ sig) → Buf (Elt Ideal) ℓ)

theorem offsets_zero : (![0, 0] : Fin 2 → Nat) = fun _ => 0 := funext fun a => by fin_cases a <;> rfl

/-- The block index maps over the 25 grid points: the x-window moves with the output window along the
    rows and stays at column block 0; the w-window stays at block (0, 0); the output window is at
    row block t, column block 0. -/
theorem block_indices : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- WHAT POINT t WRITES BACK is block t of `gemm` of the two argument arrays as the region finds them. -/
theorem flushed_eq (c : Dev nD) (t : Fin cfg0.N) :
    (dats m 0 c).flushed 2 t = ((cfg0.win 2).blk t).view.read (Elt Ideal) (gemm (V m c main_arg0) (V m c main_arg1)) := by
  show (cfg0.win 2).cut (grid0.coords t) ((dats m 0 c).after 2 t) = _
  rw [after0_2]
  unfold out0_2
  rw [View.canon_unit_zero offsets_zero]
  simp only [View.ld_unit_zero (S := S2000x1024) offsets_zero, View.ld_unit_zero (S := S128x1024) offsets_zero]
  obtain ⟨e0, e1, e2, e3, e4, e5⟩ := block_indices t
  funext j
  show k0_pay1 (F := Ideal) (iblk m c 0 t) (iblk m c 1 t) j
    = gemm (V m c main_arg0) (V m c main_arg1) (((cfg0.win 2).blk t).view.emb j)
  refine tile_is_block (iblk m c 0 t) (iblk m c 1 t) (V m c main_arg0) (V m c main_arg1)
    (win0_2.index t (0 : Fin 2) * 2000) ?_ ?_ j (((cfg0.win 2).blk t).view.emb j) ?_ ?_
  · -- row p of the x-block at point t is row 2000·t + p of x
    intro p k n hn
    show V m c main_arg0 (((cfg0.win 0).blk t).view.emb (ix2 p k)) = V m c main_arg0 (ix2 n k)
    refine congrArg (V m c main_arg0) ?_
    funext a; apply Fin.ext
    match a with
    | ⟨0, _⟩ => show win0_0.index t (0 : Fin 2) * 2000 + 1 * p.val = n.val; omega
    | ⟨1, _⟩ => show win0_0.index t (1 : Fin 2) * 1024 + 1 * k.val = k.val; omega
  · -- the w-block is the whole of w at every point
    intro q k
    show V m c main_arg1 (((cfg0.win 1).blk t).view.emb (ix2 q k)) = V m c main_arg1 (ix2 q k)
    refine congrArg (V m c main_arg1) ?_
    funext a; apply Fin.ext
    match a with
    | ⟨0, _⟩ => show win0_1.index t (0 : Fin 2) * 128 + 1 * q.val = q.val; omega
    | ⟨1, _⟩ => show win0_1.index t (1 : Fin 2) * 1024 + 1 * k.val = k.val; omega
  · show win0_2.index t (0 : Fin 2) * 2000 + 1 * (j 0).val = win0_2.index t (0 : Fin 2) * 2000 + (j 0).val; omega
  · show win0_2.index t (1 : Fin 2) * 128 + 1 * (j 1).val = (j 1).val; omega

end Cert.KernelIdeal.Tile

end
-- ==== Proof.KernelValue.lean ====
/-
  The kernel program's result as a function of its arguments.

  The 25 written-back blocks of 2000 rows tile the 50000 rows of h, and each is a block of
  `gemm x w` (the block module), so after the region the array h IS `gemm x w` (`h_after_region`).
  The host operations that follow read h and the three edge arrays, none of which the region
  wrote, and compute the aggregation: the program's result is `aggregate (gemm x w) row col vals`
  (`result_eq`), on every weakly fair execution, with the arguments unchanged (`run`).
-/
import proofs.«103100_j35210141893096_1_alg».proof.Proof.KernelBlock
import Idealize.ShloMosaic.Lib.StableHlo.Run

noncomputable section

namespace Cert.KernelIdeal.Tile

open Idealize.ShloMosaic Idealize.ShloMosaic.TcCoe Idealize.ShloMosaic.ValueIdx Idealize.SL.Sem
open Idealize.ShloMosaic.StableHlo
open Cert.KernelIdeal Cert.KernelIdeal.Gen Cert.GemmSpmm

variable (m : (ℓ : Loc nD τ sig) → Buf (Elt Ideal) ℓ) (ρ : Dev nD → PrngReg)

/-- An index of h is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Row r of h lies in the block of point r / 2000: the 25 blocks of 2000 rows cover all 50000 rows. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_2 _, ?_⟩
  rw [mem_blk]
  obtain ⟨-, -, -, -, e4, e5⟩ := block_indices ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e5]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e4]; omega

/-- THE ARRAY h after the region is the dense product of the two argument arrays. -/
theorem h_after_region (c : Dev nD) :
    (dats m 0 c).arrAt 2 cfg0.N = gemm (m ((c : Thread nD τ).loc main_arg0)) (m ((c : Thread nD τ).loc main_arg1)) :=
  (dats m 0 c).arrAt_eq_of_cover 2 (gemm (V m c main_arg0) (V m c main_arg1)) (fun t _ => flushed_eq m c t) covered

/-- THE RESULT: the host operations after the region compute the aggregation of h and the edge arrays. -/
theorem result_eq (c : Dev nD) :
    Pipeline.afterTail₀ cfgs (dats m) 0 (V0 m) [hostOps1] c main_v13
      = aggregate gather_S50000x128_S800000x1_S800000x128_1_0_n_n_0_1_1128 scatter_S50000x128_S800000x1_S800000x128_1_0_0_1
          bcast_S800000_S800000x1_0 bcast_S_S800000 bcast_S800000x1_S800000x128_0_1 bcast_S_S50000x128
          (gemm (m ((c : Thread nD τ).loc main_arg0)) (m ((c : Thread nD τ).loc main_arg1)))
          (m ((c : Thread nD τ).loc main_arg2)) (m ((c : Thread nD τ).loc main_arg3)) (m ((c : Thread nD τ).loc main_arg4)) := by
  unfold Pipeline.afterTail₀
  show StableHlo.after hostOps1 _ (Proc.devRef .tc main_v13) = _
  after_results
  have eh : Pipeline.withArrays (cfgs 0).spec c (V0 m c) (fun w => (dats m 0 c).arrAt w (cfgs 0).N) (Proc.devRef .tc main_v0)
      = gemm (m ((c : Thread nD τ).loc main_arg0)) (m ((c : Thread nD τ).loc main_arg1)) :=
    (Pipeline.withArrays_arr spec0 launch0.win.arr_inj c _ _ 2).trans (h_after_region m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  rw [eh, e2, e3, e4]
  rfl

/-- THE RUN of the kernel program over the extended reals: every weakly fair execution terminates without a
    fault, the result array holds the aggregation of the dense product, and the arguments are unchanged. -/
theorem run : θ_run defs (onTc (τ := τ) (main (F := Ideal))) ⟨m, fun _ => 0, ρ⟩ fun r => ∀ c : Dev nD,
      r.2.mem ((c.tc : Thread nD τ).loc main_v13)
        = aggregate gather_S50000x128_S800000x1_S800000x128_1_0_n_n_0_1_1128 scatter_S50000x128_S800000x1_S800000x128_1_0_0_1
            bcast_S800000_S800000x1_0 bcast_S_S800000 bcast_S800000x1_S800000x128_0_1 bcast_S_S50000x128
            (gemm (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v13 (Pipeline.mem_restRefs_of main_v13 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Tile

end
-- ==== Proof.RefValue.lean ====
/-
  The reference program's result as the same function of its arguments.

  The reference computes h = x · wᵀ in one piece: entry (n, j) of its product is the sum over k of
  x[n, k] · w[j, k], which is `gemm x w` (`dot_eq_gemm`).  The sixteen operations that follow are
  the aggregation, so on every weakly fair execution the result is
  `aggregate (gemm x w) row col vals`, with the arguments unchanged (`run`).
-/
import proofs.«103100_j35210141893096_1_alg».proof.Proof.Gen.ReferenceIdeal.Run
import proofs.«103100_j35210141893096_1_alg».proof.Proof.Gen.ReferenceIdeal.Read
import proofs.«103100_j35210141893096_1_alg».proof.Proof.Spec

noncomputable section

namespace Cert.ReferenceIdeal.Whole

open Idealize.ShloMosaic Idealize.ShloMosaic.TcCoe Idealize.ShloMosaic.ValueIdx Idealize.SL.Sem
open Cert.ReferenceIdeal Cert.ReferenceIdeal.Gen Cert.ReferenceIdeal.Read Cert.GemmSpmm

/-- Where the product's left factor is read: row n of x, column k. -/
theorem left_at (i : S50000x128.Idx) (k : Fin 1024) :
    lidx_main_v0 i k = ix2 (n0 := 50000) ⟨(i 0).val, idx2_lt0 i⟩ k := by
  funext a
  match a with
  | ⟨0, _⟩ => rfl
  | ⟨1, _⟩ => rfl

/-- Where the right factor is read: row j of w, column k. -/
theorem right_at (i : S50000x128.Idx) (k : Fin 1024) :
    ridx_main_v0 i k = ix2 (n0 := 128) ⟨(i 1).val, idx2_lt1 i⟩ k := by
  funext a
  match a with
  | ⟨0, _⟩ => rfl
  | ⟨1, _⟩ => rfl

/-- The reference's one-piece product is `gemm`. -/
theorem dot_eq_gemm (x : (⟨S50000x1024, .f32⟩ : BufTy).Contents (Elt Ideal)) (w : (⟨S128x1024, .f32⟩ : BufTy).Contents (Elt Ideal)) :
    val_main_v0 (F := Ideal) x w = gemm x w := by
  funext i
  rw [val_main_v0_apply]
  show _ = ∑ k : Fin 1024, x (ix2 (n0 := 50000) ⟨(i 0).val, idx2_lt0 i⟩ k) * w (ix2 (n0 := 128) ⟨(i 1).val, idx2_lt1 i⟩ k)
  refine Finset.sum_congr rfl fun k _ => ?_
  rw [left_at i k, right_at i k]

variable (m : (ℓ : Loc nD τ sig) → Buf (Elt Ideal) ℓ) (ρ : Dev nD → PrngReg)

/-- THE RUN of the reference program over the extended reals: every weakly fair execution terminates without a
    fault, the result array holds the aggregation of the dense product, and the arguments are unchanged. -/
theorem run : θ_run defs (onTc (τ := τ) (main (F := Ideal))) ⟨m, fun _ => 0, ρ⟩ fun r => ∀ c : Dev nD,
      r.2.mem ((c.tc : Thread nD τ).loc main_v13)
        = aggregate gather_S50000x128_S800000x1_S800000x128_1_0_n_n_0_1_1128 scatter_S50000x128_S800000x1_S800000x128_1_0_0_1
            bcast_S800000_S800000x1_0 bcast_S_S800000 bcast_S800000x1_S800000x128_0_1 bcast_S_S50000x128
            (gemm (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by rw [← dot_eq_gemm]; rfl), (h c).2⟩)
    (Cert.ReferenceIdeal.Value.run (F := Ideal) m ρ)

end Cert.ReferenceIdeal.Whole

end
-- ==== Proof.lean ====
/-
  A tiled dense product followed by a sparse aggregation equals the one-piece layer:
  out = A · (x · wᵀ), with x 50000 × 1024, w 128 × 1024 and A given by 800000 weighted edges.

  The kernel program computes h = x · wᵀ in 25 tiles of 2000 rows on narrowed operands and then
  aggregates over the edges on the host; the reference computes h in one piece and aggregates in the
  same way.  Over the extended reals the narrowing is the identity and a tile of the product is a
  block of the whole product, because entry (n, j) is the same sum over k of x[n, k] · w[j, k]
  however the rows are grouped: both programs hold the same h (`gemm x w`, Proof/Spec.lean).  The
  aggregation is literally the same sequence of operations in both programs, so it is carried as one
  function `aggregate` applied to h and the edge arrays and is never opened: equal arguments give
  equal results.  No law that fails at an infinity is used (only a sum's independence of how its
  index set is named), so the finiteness of the inputs is not needed for the value.

  Proof/KernelBlock.lean: what one grid point writes back is a block of `gemm x w`.
  Proof/KernelValue.lean: the blocks tile h; the kernel program's result is `aggregate (gemm x w) …`.
  Proof/RefValue.lean:    the reference's product is `gemm x w`; its result is the same term.
  Here: the three runs (terminating, fault-free, arguments unchanged) and the two results joined.
  The idealized kernel is the printed kernel read over the extended reals with nothing rewritten, so
  the fourth conjunct has nothing to state.
-/
import proofs.«103100_j35210141893096_1_alg».proof.Defs
import proofs.«103100_j35210141893096_1_alg».proof.Proof.Gen.Kernel
import proofs.«103100_j35210141893096_1_alg».proof.Proof.Gen.Kernel.Skeleton
import proofs.«103100_j35210141893096_1_alg».proof.Proof.Gen.Kernel.Launch
import proofs.«103100_j35210141893096_1_alg».proof.Proof.Gen.Kernel.Points
import proofs.«103100_j35210141893096_1_alg».proof.Proof.Gen.Kernel.Frame
import proofs.«103100_j35210141893096_1_alg».proof.Proof.Gen.KernelIdeal
import proofs.«103100_j35210141893096_1_alg».proof.Proof.Gen.KernelIdeal.Skeleton
import proofs.«103100_j35210141893096_1_alg».proof.Proof.Gen.KernelIdeal.Launch
import proofs.«103100_j35210141893096_1_alg».proof.Proof.Gen.KernelIdeal.Points
import proofs.«103100_j35210141893096_1_alg».proof.Proof.Gen.KernelIdeal.Frame
import proofs.«103100_j35210141893096_1_alg».proof.Proof.Gen.ReferenceIdeal
import proofs.«103100_j35210141893096_1_alg».proof.Proof.Gen.Pre_finite_inputs
import proofs.«103100_j35210141893096_1_alg».proof.Proof.Gen.ReferenceIdeal.Run
import proofs.«103100_j35210141893096_1_alg».proof.Proof.Gen.ReferenceIdeal.Read
import proofs.«103100_j35210141893096_1_alg».proof.Proof.KernelValue
import proofs.«103100_j35210141893096_1_alg».proof.Proof.RefValue
import Idealize.ShloMosaic.Adequacy
import Idealize.ShloMosaic.Init

noncomputable section

namespace Cert.Proof

open Idealize.ShloMosaic Idealize.SL.Sem Cert.GemmSpmm

/-- The two programs' gather records are one record: the same dimension numbers over the same shapes. -/
theorem gather_eq : Cert.ReferenceIdeal.gather_S50000x128_S800000x1_S800000x128_1_0_n_n_0_1_1128
    = Cert.KernelIdeal.gather_S50000x128_S800000x1_S800000x128_1_0_n_n_0_1_1128 := rfl

/-- And so are their scatter-add records. -/
theorem scatter_eq : Cert.ReferenceIdeal.scatter_S50000x128_S800000x1_S800000x128_1_0_0_1
    = Cert.KernelIdeal.scatter_S50000x128_S800000x1_S800000x128_1_0_0_1 := rfl

/-- The printed kernel runs: every weakly fair execution terminates without a fault, arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the five arguments both programs end with the aggregation of the same
    dense product: `aggregate (gemm x w) row col vals`. -/
theorem algebraic : Cert.algebraic_KernelIdeal_ReferenceIdeal := by
  intro m ρ m' ρ' _ hagree
  refine ⟨_, Cert.KernelIdeal.Tile.run m ρ, ?_⟩
  refine (θ_run Cert.ReferenceIdeal.defs _ _).mono (fun _ h c => ⟨(h c).1.trans ?_, (h c).2⟩)
    (Cert.ReferenceIdeal.Whole.run m' ρ')
  rw [(hagree c).1, (hagree c).2.1, (hagree c).2.2.1, (hagree c).2.2.2.1, (hagree c).2.2.2.2, gather_eq, scatter_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
